-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64x32 .f32) (main_arg6 : FVec F S32 .f32) (main_arg7 : FVec F S64x32 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x32 .f32 := Host.absf main_arg7
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  main_v33

def fn {F : FTy → Type} [FloatOps F] (main_arg0 : FVec F S100000x32 .f32) (main_arg1 : IVec S2x1600000 32) (main_arg2 : FVec F S32x64 .f32) (main_arg3 : FVec F S64 .f32) (main_arg4 : FVec F S32x64 .f32) (main_arg5 : FVec F S64x32 .f32) (main_arg6 : FVec F S32 .f32) (main_arg7 : FVec F S64x32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S32x64 .f32 := Host.absf main_arg4
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg5 main_arg6 main_arg7 main_v13 main_v16
-- ==== Kernel.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x32 : Shape := ⟨2, ![1600000, 32]⟩
abbrev S100000x64 : Shape := ⟨2, ![100000, 64]⟩
abbrev S5000x32 : Shape := ⟨2, ![5000, 32]⟩
abbrev S5000x1 : Shape := ⟨2, ![5000, 1]⟩
abbrev S5000x64 : Shape := ⟨2, ![5000, 64]⟩
abbrev S1x64 : Shape := ⟨2, ![1, 64]⟩
abbrev S1600000x64 : Shape := ⟨2, ![1600000, 64]⟩
abbrev S1x32 : Shape := ⟨2, ![1, 32]⟩

abbrev nBuf : Space → Nat
  | .hbm => 47
  | .vmem => 22
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S32x64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S100000x1, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x32, .f32⟩
  | .hbm, ⟨28, _⟩ => ⟨S_, .f32⟩
  | .hbm, ⟨29, _⟩ => ⟨S100000x32, .f32⟩
  | .hbm, ⟨30, _⟩ => ⟨S1600000x1, .i32⟩
  | .hbm, ⟨31, _⟩ => ⟨S100000x32, .f32⟩
  | .hbm, ⟨32, _⟩ => ⟨S100000x64, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | .hbm, ⟨46, _⟩ => ⟨S100000x32, .f32⟩
  | .local _ .vmem, ⟨0, _⟩ => ⟨S5000x32, .f32⟩
  | .local _ .vmem, ⟨1, _⟩ => ⟨S5000x32, .f32⟩
  | .local _ .vmem, ⟨2, _⟩ => ⟨S5000x1, .f32⟩
  | .local _ .vmem, ⟨3, _⟩ => ⟨S5000x1, .f32⟩
  | .local _ .vmem, ⟨4, _⟩ => ⟨S5000x32, .f32⟩
  | .local _ .vmem, ⟨5, _⟩ => ⟨S5000x32, .f32⟩
  | .local _ .vmem, ⟨6, _⟩ => ⟨S32x64, .f32⟩
  | .local _ .vmem, ⟨7, _⟩ => ⟨S64, .f32⟩
  | .local _ .vmem, ⟨8, _⟩ => ⟨S32x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S5000x64, .f32⟩
  | .local _ .vmem, ⟨16, _⟩ => ⟨S5000x64, .f32⟩
  | .local _ .vmem, ⟨17, _⟩ => ⟨S64x32, .f32⟩
  | .local _ .vmem, ⟨18, _⟩ => ⟨S32, .f32⟩
  | .local _ .vmem, ⟨19, _⟩ => ⟨S64x32, .f32⟩
  | .local _ .vmem, ⟨20, _⟩ => ⟨S5000x32, .f32⟩
  | .local _ .vmem, ⟨21, _⟩ => ⟨S5000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x32 : S_.BroadcastsInDim S100000x32 (![] : Fin 0 → Fin S100000x32.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  broadcasts_S5000x1_S5000x32 : S5000x1.Broadcasts S5000x32
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S5000x64_S5000x64 : S5000x64.ShapeCasts S5000x64
  broadcasts_S5000x1_S5000x64 : S5000x1.Broadcasts S5000x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x64_S5000x64_1_0_0_1_n_n_wf : DotDims.WF S5000x32 S32x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x64.size a ≤ S32x64.size a
  hwx0_5 : ∀ i : grid0.Coords, EltTy.bits .f32 = 32 ∨ (Rect.block (s := S32x64) S32x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32.size a ≤ S32.size a
  hwx1_4 : ∀ i : grid1.Coords, EltTy.bits .f32 = 32 ∨ (Rect.block (s := S32) S32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x32.size a ≤ S64x32.size a
  hwx1_5 : ∀ i : grid1.Coords, EltTy.bits .f32 = 32 ∨ (Rect.block (s := S64x32) S64x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x32.size a ≤ S100000x32.size a
  hwx1_6 : ∀ i : grid1.Coords, EltTy.bits .f32 = 32 ∨ (Rect.block (s := S100000x32) S5000x32.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_v18) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S32x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v29) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S5000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S1x32 : Shape := ⟨2, ![1, 32]⟩

abbrev nBuf : Space → Nat
  | .hbm => 77
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S32x64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x32, .f32⟩
  | .hbm, ⟨21, _⟩ => ⟨S_, .f32⟩
  | .hbm, ⟨22, _⟩ => ⟨S100000x32, .f32⟩
  | .hbm, ⟨23, _⟩ => ⟨S1600000x1, .i32⟩
  | .hbm, ⟨24, _⟩ => ⟨S100000x32, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x32, .f32⟩
  | .hbm, ⟨36, _⟩ => ⟨S100000x32, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S100000x32, .f32⟩
  | .hbm, ⟨72, _⟩ => ⟨S1x32, .f32⟩
  | .hbm, ⟨73, _⟩ => ⟨S100000x32, .f32⟩
  | .hbm, ⟨74, _⟩ => ⟨S100000x32, .f32⟩
  | .hbm, ⟨75, _⟩ => ⟨S100000x32, .f32⟩
  | .hbm, ⟨76, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S100000_S1600000x1_S1600000_n_0_0_1_wf : ScatterDims.WF S100000 S1600000x1 S1600000 [] [0] [0] 1
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.SageRun.lean ====
/-
  The two-region program's run, with its result named.

  Every weakly fair execution of the program terminates without a fault; at the end each argument array is as it was
  launched and the result array holds what the last boundary of the run's fold holds at the result's buffer (the
  contents after the second region's write-backs).  This is the run behind the frame claim, stated with one more
  conjunct: the fold at the result buffer.  The value of that fold is read in the modules that import this one.
-/
import proofs.«164693_j41841571397936_2_alg».proof.Proof.Gen.KernelIdeal.Frame

set_option maxRecDepth 16384

noncomputable section

namespace Cert.KernelIdeal.SageRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, the argument arrays as launched. -/
theorem run_main : θ_run defs (onTc (τ := τ) (main (F := F))) ⟨m, fun _ => 0, ρ⟩ (fun r => ∀ c : Dev nD,
      r.2.mem ((c.tc : Thread nD τ).loc main_v30) = W4 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v30 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.SageRun

end
-- ==== Proof.SageRows.lean ====
/-
  One mean-aggregating graph layer, row by row, on the extended reals.

  Node p has a feature row x(p, ·), a row agg(p, ·) holding the sum of its in-neighbours' feature rows, and an
  in-degree cnt(p).  The layer's output at node p and output channel f is

      ( sum over d of (agg(p, d) / max(cnt(p), 1)) * wl(d, f)  +  b(f) )  +  sum over d of x(p, d) * wr(d, f),

  the neighbour mean times one weight matrix, plus the bias, plus the node's own row times a second weight matrix, added
  in exactly this grouping.  The first layer of the network is followed by a rectifier, max(·, 0).  The words of one and
  zero are kept as their f32 patterns; the quotient is the extended reals' division.
-/
import Idealize.ShloMosaic.PureOps.Ideal
import Idealize.ShloMosaic.Lib.ValueIdx

noncomputable section

namespace Cert.SageRows

open Idealize.ShloMosaic Idealize.ShloMosaic.ValueIdx
open scoped BigOperators

/-- The value of the f32 word of 1.0. -/
abbrev one : EReal := Ideal.ofBits .f32 0x3F800000#32
/-- The value of the f32 word of 0.0. -/
abbrev zero : EReal := Ideal.ofBits .f32 0x00000000#32

/-- The layer's output at node `p`, channel `f`. -/
def row {M K N : ℕ} (agg : FVec Ideal ⟨2, ![M, K]⟩ .f32) (cnt : FVec Ideal ⟨1, ![M]⟩ .f32)
    (x : FVec Ideal ⟨2, ![M, K]⟩ .f32) (wl : FVec Ideal ⟨2, ![K, N]⟩ .f32) (b : FVec Ideal ⟨1, ![N]⟩ .f32)
    (wr : FVec Ideal ⟨2, ![K, N]⟩ .f32) (p : Fin M) (f : Fin N) : EReal :=
  ((∑ d : Fin K, Ideal.div (agg (ix2 p d)) (max (cnt (ix1 p)) one) * wl (ix2 d f)) + b (ix1 f))
    + ∑ d : Fin K, x (ix2 p d) * wr (ix2 d f)

/-- The layer as a whole array. -/
def layer {M K N : ℕ} (agg : FVec Ideal ⟨2, ![M, K]⟩ .f32) (cnt : FVec Ideal ⟨1, ![M]⟩ .f32)
    (x : FVec Ideal ⟨2, ![M, K]⟩ .f32) (wl : FVec Ideal ⟨2, ![K, N]⟩ .f32) (b : FVec Ideal ⟨1, ![N]⟩ .f32)
    (wr : FVec Ideal ⟨2, ![K, N]⟩ .f32) : FVec Ideal ⟨2, ![M, N]⟩ .f32 :=
  fun j => row agg cnt x wl b wr (j 0) (j 1)

/-- The layer followed by the rectifier, as a whole array. -/
def layerRelu {M K N : ℕ} (agg : FVec Ideal ⟨2, ![M, K]⟩ .f32) (cnt : FVec Ideal ⟨1, ![M]⟩ .f32)
    (x : FVec Ideal ⟨2, ![M, K]⟩ .f32) (wl : FVec Ideal ⟨2, ![K, N]⟩ .f32) (b : FVec Ideal ⟨1, ![N]⟩ .f32)
    (wr : FVec Ideal ⟨2, ![K, N]⟩ .f32) : FVec Ideal ⟨2, ![M, N]⟩ .f32 :=
  fun j => max (row agg cnt x wl b wr (j 0) (j 1)) zero

theorem layer_ix2 {M K N : ℕ} (agg : FVec Ideal ⟨2, ![M, K]⟩ .f32) (cnt : FVec Ideal ⟨1, ![M]⟩ .f32)
    (x : FVec Ideal ⟨2, ![M, K]⟩ .f32) (wl : FVec Ideal ⟨2, ![K, N]⟩ .f32) (b : FVec Ideal ⟨1, ![N]⟩ .f32)
    (wr : FVec Ideal ⟨2, ![K, N]⟩ .f32) (p : Fin M) (f : Fin N) :
    layer agg cnt x wl b wr (ix2 p f) = row agg cnt x wl b wr p f := rfl

theorem layerRelu_ix2 {M K N : ℕ} (agg : FVec Ideal ⟨2, ![M, K]⟩ .f32) (cnt : FVec Ideal ⟨1, ![M]⟩ .f32)
    (x : FVec Ideal ⟨2, ![M, K]⟩ .f32) (wl : FVec Ideal ⟨2, ![K, N]⟩ .f32) (b : FVec Ideal ⟨1, ![N]⟩ .f32)
    (wr : FVec Ideal ⟨2, ![K, N]⟩ .f32) (p : Fin M) (f : Fin N) :
    layerRelu agg cnt x wl b wr (ix2 p f) = max (row agg cnt x wl b wr p f) zero := rfl

/-- The whole network on a graph: two layers, the second fed by the first's rectified output and by its neighbour sums.
    `cnt` is the in-degree vector, `A1` and `A2` the neighbour-sum maps at the two channel widths. -/
def net {M C H O : ℕ} (cnt : FVec Ideal ⟨1, ![M]⟩ .f32)
    (A1 : FVec Ideal ⟨2, ![M, C]⟩ .f32 → FVec Ideal ⟨2, ![M, C]⟩ .f32)
    (A2 : FVec Ideal ⟨2, ![M, H]⟩ .f32 → FVec Ideal ⟨2, ![M, H]⟩ .f32)
    (x : FVec Ideal ⟨2, ![M, C]⟩ .f32) (wl1 : FVec Ideal ⟨2, ![C, H]⟩ .f32) (b1 : FVec Ideal ⟨1, ![H]⟩ .f32)
    (wr1 : FVec Ideal ⟨2, ![C, H]⟩ .f32) (wl2 : FVec Ideal ⟨2, ![H, O]⟩ .f32) (b2 : FVec Ideal ⟨1, ![O]⟩ .f32)
    (wr2 : FVec Ideal ⟨2, ![H, O]⟩ .f32) : FVec Ideal ⟨2, ![M, O]⟩ .f32 :=
  layer (A2 (layerRelu (A1 x) cnt x wl1 b1 wr1)) cnt (layerRelu (A1 x) cnt x wl1 b1 wr1) wl2 b2 wr2

end Cert.SageRows

end
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.SageKernelForm.lean ====
/-
  The layer as a vector program computes it on a block of rows: the in-degree column clamped below by one and spread
  over the channels, the neighbour sums divided by it entry by entry, two matrix products into zero accumulators, the
  bias vector laid out as a row and spread over the rows.  Read at row p and channel f this is the layer's row formula:
  a change of float format is the identity on the extended reals, a product into zero is the inner product, and the
  layout operations only re-index.
-/
import proofs.«164693_j41841571397936_2_alg».proof.Proof.SageRows
import proofs.«164693_j41841571397936_2_alg».proof.Proof.LibKeepdims
import proofs.«164693_j41841571397936_2_alg».proof.Proof.LibInnerProducts
import Idealize.ShloMosaic.Lib.ValueLayout

noncomputable section

namespace Cert.SageKernelForm

open Idealize.ShloMosaic Idealize.ShloMosaic.ValueIdx Cert.SageRows
open scoped BigOperators

/-- The block program without its rectifier, at row `p` and channel `f`.  The in-degree arrives as a column [M, 1]. -/
theorem block_apply {M K N : ℕ} (D : DotDims ⟨2, ![M, K]⟩ ⟨2, ![K, N]⟩ ⟨2, ![M, N]⟩) (hD : D = DotDims.plain M K N)
    (cnt : FVec Ideal ⟨2, ![M, 1]⟩ .f32) (agg x : FVec Ideal ⟨2, ![M, K]⟩ .f32) (wl wr : FVec Ideal ⟨2, ![K, N]⟩ .f32)
    (b : FVec Ideal ⟨1, ![N]⟩ .f32)
    (hc : (⟨2, ![M, 1]⟩ : Shape).Broadcasts ⟨2, ![M, K]⟩) (hb : (⟨1, ![N]⟩ : Shape).ShapeCasts ⟨2, ![1, N]⟩)
    (hbb : (⟨2, ![1, N]⟩ : Shape).Broadcasts ⟨2, ![M, N]⟩) (hlt : FTy.bf16.bits < FTy.f32.bits) (p : Fin M) (f : Fin N) :
    addf (addf (matmul D none
            (truncf .bf16 (divf agg (broadcastTo ⟨2, ![M, K]⟩
              (maximumf cnt (broadcast ⟨2, ![M, 1]⟩ (Scalar.ofBits (F := Ideal) .f32 0x3F800000#32))) hc)) hlt)
            (truncf .bf16 wl hlt) (constant (F := Ideal) ⟨2, ![M, N]⟩ .f32 0x00000000#32))
          (broadcastTo ⟨2, ![M, N]⟩ (shapeCast ⟨2, ![1, N]⟩ b hb) hbb))
        (matmul D none (truncf .bf16 x hlt) (truncf .bf16 wr hlt) (constant (F := Ideal) ⟨2, ![M, N]⟩ .f32 0x00000000#32))
        (ix2 p f)
      = row agg (fun i => cnt (ix2 (i 0) (0 : Fin 1))) x wl b wr p f := by
  rw [addf_apply, addf_apply, InnerProducts.matmul_zero_apply D hD, InnerProducts.matmul_zero_apply D hD,
    broadcastTo_1b_ab_apply, shapeCast_a_1a_apply]
  unfold row
  refine congrArg₂ (· + ·) (congrArg₂ (· + ·) (Finset.sum_congr rfl fun d _ => ?_) rfl) rfl
  rw [truncf_apply, truncf_apply, divf_apply, LibKeepdims.broadcastTo_a1_ab_apply, maximumf_apply, broadcast_apply]
  rfl

end Cert.SageKernelForm

end
-- ==== Proof.SageRegion0.lean ====
/-
  The first kernel region, read as a whole array.

  The region walks the 100000 node rows in 20 blocks of 5000.  At block t it is handed rows 5000 t … 5000 t + 4999 of
  the neighbour sums, of the in-degree column and of the features, and the two weight matrices and the bias whole; it
  writes rows 5000 t … 5000 t + 4999 of its output.  What it writes is the rectified layer of exactly those rows, so
  the output array, once every block is written back, is the rectified layer of the arrays the region was entered
  with, node by node.  Everything is stated at an arbitrary entry contents `V`.
-/
import proofs.«164693_j41841571397936_2_alg».proof.Proof.Gen.KernelIdeal.Frame
import proofs.«164693_j41841571397936_2_alg».proof.Proof.SageKernelForm
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.SageRegion0

open Cert.KernelIdeal Cert.KernelIdeal.Gen Cert.SageRows Cert.SageKernelForm

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- What the block program stores, at row `p` and channel `f` of the block: the rectified row formula of the block's
    operands (the in-degree read from its column). -/
theorem stored_apply (v0 : Vec Ideal S5000x1 .f32) (v4 v9 : Vec Ideal S5000x32 .f32) (v11 v13 : Vec Ideal S32x64 .f32)
    (v16 : Vec Ideal S64 .f32) (p : Fin 5000) (f : Fin 64) :
    k0_pay1 (F := Ideal) v0 v4 v9 v11 v13 v16 (ix2 p f)
      = max (row v4 (fun i => v0 (ix2 (i 0) (0 : Fin 1))) v9 v11 v16 v13 p f) zero := by
  unfold k0_pay1
  simp only [shapeCast_self]
  rw [maximumf_apply, broadcast_apply]
  exact congrArg (fun z => max z _) (block_apply _ rfl v0 v4 v9 v11 v13 v16 _ _ _ _ p f)

/-- Where each window's block sits at point `t`: the row-blocked windows at block row `t`, the others at the origin. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The neighbour sums' block at point `t` is rows 5000 t … of the array. -/
theorem agg_block (c : Dev nD) (t : Fin cfg0.N) (x : S5000x32.Idx) (k : S100000x32.Idx)
    (hk0 : (k 0).val = t.val * 5000 + (x 0).val) (hk1 : (k 1).val = (x 1).val) :
    (iblk0 V c 0 t : Vec Ideal S5000x32 .f32) x = (V c main_v18 : S100000x32.Idx → Elt Ideal .f32) k := by
  obtain ⟨e0, e1, -⟩ := block_index t
  unfold iblk0
  rw [View.read_apply]
  show V c main_v18 _ = V c main_v18 _
  refine congrArg (V c main_v18) (funext fun a => Fin.ext ?_)
  match a with
  | ⟨0, _⟩ => show win0_0.index t (0 : Fin 2) * 5000 + 1 * (x 0).val = (k 0).val; rw [e0, hk0]; omega
  | ⟨1, _⟩ => show win0_0.index t (1 : Fin 2) * 32 + 1 * (x 1).val = (k 1).val; rw [e1, hk1]; omega

/-- The in-degree column's block at point `t` is rows 5000 t … of the column. -/
theorem cnt_block (c : Dev nD) (t : Fin cfg0.N) (x : S5000x1.Idx) (k : S100000x1.Idx)
    (hk0 : (k 0).val = t.val * 5000 + (x 0).val) (hk1 : (k 1).val = (x 1).val) :
    (iblk0 V c 1 t : Vec Ideal S5000x1 .f32) x = (V c main_v8 : S100000x1.Idx → Elt Ideal .f32) k := by
  obtain ⟨-, -, e0, e1, -⟩ := block_index t
  unfold iblk0
  rw [View.read_apply]
  show V c main_v8 _ = V c main_v8 _
  refine congrArg (V c main_v8) (funext fun a => Fin.ext ?_)
  match a with
  | ⟨0, _⟩ => show win0_1.index t (0 : Fin 2) * 5000 + 1 * (x 0).val = (k 0).val; rw [e0, hk0]; omega
  | ⟨1, _⟩ => show win0_1.index t (1 : Fin 2) * 1 + 1 * (x 1).val = (k 1).val; rw [e1, hk1]; omega

/-- The features' block at point `t` is rows 5000 t … of the array. -/
theorem x_block (c : Dev nD) (t : Fin cfg0.N) (x : S5000x32.Idx) (k : S100000x32.Idx)
    (hk0 : (k 0).val = t.val * 5000 + (x 0).val) (hk1 : (k 1).val = (x 1).val) :
    (iblk0 V c 2 t : Vec Ideal S5000x32 .f32) x = (V c main_arg0 : S100000x32.Idx → Elt Ideal .f32) k := by
  obtain ⟨-, -, -, -, e0, e1, -⟩ := block_index t
  unfold iblk0
  rw [View.read_apply]
  show V c main_arg0 _ = V c main_arg0 _
  refine congrArg (V c main_arg0) (funext fun a => Fin.ext ?_)
  match a with
  | ⟨0, _⟩ => show win0_2.index t (0 : Fin 2) * 5000 + 1 * (x 0).val = (k 0).val; rw [e0, hk0]; omega
  | ⟨1, _⟩ => show win0_2.index t (1 : Fin 2) * 32 + 1 * (x 1).val = (k 1).val; rw [e1, hk1]; omega

/-- The first weight matrix comes whole at every point. -/
theorem wl_block (c : Dev nD) (t : Fin cfg0.N) (x : S32x64.Idx) :
    (iblk0 V c 3 t : Vec Ideal S32x64 .f32) x = (V c main_arg2 : S32x64.Idx → Elt Ideal .f32) x := by
  obtain ⟨-, -, -, -, -, -, e0, e1, -⟩ := block_index t
  unfold iblk0
  rw [View.read_apply]
  show V c main_arg2 _ = V c main_arg2 _
  refine congrArg (V c main_arg2) (funext fun a => Fin.ext ?_)
  match a with
  | ⟨0, _⟩ => show win0_3.index t (0 : Fin 2) * 32 + 1 * (x 0).val = (x 0).val; rw [e0]; omega
  | ⟨1, _⟩ => show win0_3.index t (1 : Fin 2) * 64 + 1 * (x 1).val = (x 1).val; rw [e1]; omega

/-- The bias comes whole at every point. -/
theorem b_block (c : Dev nD) (t : Fin cfg0.N) (x : S64.Idx) :
    (iblk0 V c 4 t : Vec Ideal S64 .f32) x = (V c main_arg3 : S64.Idx → Elt Ideal .f32) x := by
  obtain ⟨-, -, -, -, -, -, -, -, e0, -⟩ := block_index t
  unfold iblk0
  rw [View.read_apply]
  show V c main_arg3 _ = V c main_arg3 _
  refine congrArg (V c main_arg3) (funext fun a => Fin.ext ?_)
  match a with
  | ⟨0, _⟩ => show win0_4.index t (0 : Fin 1) * 64 + 1 * (x 0).val = (x 0).val; rw [e0]; omega

/-- The second weight matrix comes whole at every point. -/
theorem wr_block (c : Dev nD) (t : Fin cfg0.N) (x : S32x64.Idx) :
    (iblk0 V c 5 t : Vec Ideal S32x64 .f32) x = (V c main_arg4 : S32x64.Idx → Elt Ideal .f32) x := by
  obtain ⟨-, -, -, -, -, -, -, -, -, e0, e1, -⟩ := block_index t
  unfold iblk0
  rw [View.read_apply]
  show V c main_arg4 _ = V c main_arg4 _
  refine congrArg (V c main_arg4) (funext fun a => Fin.ext ?_)
  match a with
  | ⟨0, _⟩ => show win0_5.index t (0 : Fin 2) * 32 + 1 * (x 0).val = (x 0).val; rw [e0]; omega
  | ⟨1, _⟩ => show win0_5.index t (1 : Fin 2) * 64 + 1 * (x 1).val = (x 1).val; rw [e1]; omega

/-- The region's output as one function of the arrays it is entered with: the rectified layer, the in-degree read
    from its column. -/
def out (c : Dev nD) : Buf (Elt Ideal) ((c : Thread nD τ).loc main_v19) :=
  layerRelu (M := 100000) (K := 32) (N := 64) (V c main_v18) (fun i => V c main_v8 (ix2 (i 0) (0 : Fin 1)))
    (V c main_arg0) (V c main_arg2) (V c main_arg3) (V c main_arg4)

/-- What point `t` stores at block position `y` is the output function at row 5000 t + (row of `y`). -/
theorem stored_eq (c : Dev nD) (t : Fin cfg0.N) (y : S5000x64.Idx) (i : S100000x64.Idx)
    (hi0 : (i 0).val = t.val * 5000 + (y 0).val) (hi1 : (i 1).val = (y 1).val) :
    k0_pay1 (F := Ideal) (iblk0 V c 1 t) (iblk0 V c 0 t) (iblk0 V c 2 t) (iblk0 V c 3 t) (iblk0 V c 5 t) (iblk0 V c 4 t) y
      = out V c i := by
  obtain ⟨p, f, rfl⟩ : ∃ (p : Fin 5000) (f : Fin 64), y = ix2 p f := ⟨y 0, y 1, eq_ix2 y⟩
  obtain ⟨q, g, rfl⟩ : ∃ (q : Fin 100000) (g : Fin 64), i = ix2 q g := ⟨i 0, i 1, eq_ix2 i⟩
  have hq : q.val = t.val * 5000 + p.val := hi0
  obtain rfl : g = f := Fin.ext hi1
  refine (stored_apply _ _ _ _ _ _ p g).trans ?_
  unfold out
  rw [layerRelu_ix2]
  refine congrArg (fun z => max z zero) ?_
  unfold row
  refine congrArg₂ (· + ·) (congrArg₂ (· + ·) (Finset.sum_congr rfl fun d _ => ?_) ?_) (Finset.sum_congr rfl fun d _ => ?_)
  · rw [agg_block V c t (ix2 p d) (ix2 q d) hq rfl, wl_block V c t (ix2 d g)]
    exact congrArg (fun z => Ideal.div _ (max z one) * _) (cnt_block V c t _ _ hq rfl)
  · exact b_block V c t (ix1 g)
  · rw [x_block V c t (ix2 p d) (ix2 q d) hq rfl, wr_block V c t (ix2 d g)]

/-- What point `t` writes back is its block of the output function. -/
theorem flushed_eq (c : Dev nD) (t : Fin cfg0.N) :
    (dat0 V c).flushed 6 t = ((cfg0.win 6).blk t).view.read (Elt Ideal) (out V c) := by
  show (cfg0.win 6).cut (grid0.coords t) ((dat0 V c).after 6 t) = _
  rw [after0_6]
  unfold out0_6
  rw [View.canon_unit_zero hz2]
  simp only [View.ld_unit_zero (S := S5000x32) hz2, View.ld_unit_zero (S := S5000x1) hz2,
    View.ld_unit_zero (S := S32x64) hz2, View.ld_unit_zero (S := S64) hz1]
  obtain ⟨-, -, -, -, -, -, -, -, -, -, -, e0, e1⟩ := block_index t
  funext j
  show k0_pay1 (F := Ideal) (iblk0 V c 1 t) (iblk0 V c 0 t) (iblk0 V c 2 t) (iblk0 V c 3 t) (iblk0 V c 5 t) (iblk0 V c 4 t) j
    = out V c (((cfg0.win 6).blk t).view.emb j)
  refine stored_eq V c t j _ ?_ ?_
  · show win0_6.index t (0 : Fin 2) * 5000 + 1 * (j 0).val = t.val * 5000 + (j 0).val
    rw [e0]; omega
  · show win0_6.index t (1 : Fin 2) * 64 + 1 * (j 1).val = (j 1).val
    rw [e1]; omega

/-- An index of the output array is in point `t`'s block iff each coordinate is in the block's range on its axis. -/
theorem mem_blk (t : Fin cfg0.N) (i : S100000x64.Idx) :
    i ∈ ((cfg0.win 6).blk t).view.set ↔ ∀ a : Fin 2, win0_6.index t a * S5000x64.size a ≤ (i a).val
      ∧ (i a).val < win0_6.index t a * S5000x64.size a + S5000x64.size a := by
  show i ∈ ((View.whole main_v19).slice (win0_6.rect t)).set ↔ _
  rw [View.set_slice_whole, Rect.mem_set_unit]
  exact Iff.rfl

/-- Every node row lies in the block of the point numbered (row / 5000). -/
theorem cover (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_6 _, ?_⟩
  obtain ⟨-, -, -, -, -, -, -, -, -, -, -, e0, e1⟩ := block_index ⟨(i 0).val / 5000, by rw [hN]; omega⟩
  rw [mem_blk]
  intro a
  match a with
  | ⟨0, _⟩ =>
    show win0_6.index _ (0 : Fin 2) * 5000 ≤ (i 0).val ∧ (i 0).val < win0_6.index _ (0 : Fin 2) * 5000 + 5000
    rw [e0]; show (i 0).val / 5000 * 5000 ≤ (i 0).val ∧ (i 0).val < (i 0).val / 5000 * 5000 + 5000; omega
  | ⟨1, _⟩ =>
    show win0_6.index _ (1 : Fin 2) * 64 ≤ (i 1).val ∧ (i 1).val < win0_6.index _ (1 : Fin 2) * 64 + 64
    rw [e1]; omega

/-- The output array after the region is the rectified layer of the arrays the region was entered with. -/
theorem final (c : Dev nD) : (dat0 V c).arrAt 6 cfg0.N = out V c :=
  (dat0 V c).arrAt_eq_of_cover 6 (out V c) (fun t _ => flushed_eq V c t) cover

end Cert.KernelIdeal.SageRegion0

end
-- ==== Proof.SageRegion1.lean ====
/-
  The second kernel region, read as a whole array.

  Like the first it walks the 100000 node rows in 20 blocks of 5000, now over 64-channel inputs and with no rectifier:
  at block t it is handed rows 5000 t … 5000 t + 4999 of the neighbour sums of the hidden features, of the in-degree
  column and of the hidden features, and the second layer's two weight matrices and bias whole, and writes the layer of
  exactly those rows.  So the output array, once every block is written back, is the layer of the arrays the region was
  entered with, node by node.  Everything is stated at an arbitrary entry contents `V`.
-/
import proofs.«164693_j41841571397936_2_alg».proof.Proof.Gen.KernelIdeal.Frame
import proofs.«164693_j41841571397936_2_alg».proof.Proof.SageKernelForm
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.SageRegion1

open Cert.KernelIdeal Cert.KernelIdeal.Gen Cert.SageRows Cert.SageKernelForm

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- What the block program stores, at row `p` and channel `f` of the block: the row formula of the block's
    operands (the in-degree read from its column). -/
theorem stored_apply (v0 : Vec Ideal S5000x1 .f32) (v4 v9 : Vec Ideal S5000x64 .f32) (v11 v13 : Vec Ideal S64x32 .f32)
    (v16 : Vec Ideal S32 .f32) (p : Fin 5000) (f : Fin 32) :
    k1_pay1 (F := Ideal) v0 v4 v9 v11 v13 v16 (ix2 p f)
      = row v4 (fun i => v0 (ix2 (i 0) (0 : Fin 1))) v9 v11 v16 v13 p f := by
  unfold k1_pay1
  simp only [shapeCast_self]
  exact block_apply _ rfl v0 v4 v9 v11 v13 v16 _ _ _ _ p f

/-- Where each window's block sits at point `t`: the row-blocked windows at block row `t`, the others at the origin. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The block of the hidden features' neighbour sums at point `t` is rows 5000 t … of the array. -/
theorem agg_block (c : Dev nD) (t : Fin cfg1.N) (x : S5000x64.Idx) (k : S100000x64.Idx)
    (hk0 : (k 0).val = t.val * 5000 + (x 0).val) (hk1 : (k 1).val = (x 1).val) :
    (iblk1 V c 0 t : Vec Ideal S5000x64 .f32) x = (V c main_v29 : S100000x64.Idx → Elt Ideal .f32) k := by
  obtain ⟨e0, e1, -⟩ := block_index t
  unfold iblk1
  rw [View.read_apply]
  show V c main_v29 _ = V c main_v29 _
  refine congrArg (V c main_v29) (funext fun a => Fin.ext ?_)
  match a with
  | ⟨0, _⟩ => show win1_0.index t (0 : Fin 2) * 5000 + 1 * (x 0).val = (k 0).val; rw [e0, hk0]; omega
  | ⟨1, _⟩ => show win1_0.index t (1 : Fin 2) * 64 + 1 * (x 1).val = (k 1).val; rw [e1, hk1]; omega

/-- The in-degree column's block at point `t` is rows 5000 t … of the column. -/
theorem cnt_block (c : Dev nD) (t : Fin cfg1.N) (x : S5000x1.Idx) (k : S100000x1.Idx)
    (hk0 : (k 0).val = t.val * 5000 + (x 0).val) (hk1 : (k 1).val = (x 1).val) :
    (iblk1 V c 1 t : Vec Ideal S5000x1 .f32) x = (V c main_v8 : S100000x1.Idx → Elt Ideal .f32) k := by
  obtain ⟨-, -, e0, e1, -⟩ := block_index t
  unfold iblk1
  rw [View.read_apply]
  show V c main_v8 _ = V c main_v8 _
  refine congrArg (V c main_v8) (funext fun a => Fin.ext ?_)
  match a with
  | ⟨0, _⟩ => show win1_1.index t (0 : Fin 2) * 5000 + 1 * (x 0).val = (k 0).val; rw [e0, hk0]; omega
  | ⟨1, _⟩ => show win1_1.index t (1 : Fin 2) * 1 + 1 * (x 1).val = (k 1).val; rw [e1, hk1]; omega

/-- The hidden features' block at point `t` is rows 5000 t … of the array. -/
theorem x_block (c : Dev nD) (t : Fin cfg1.N) (x : S5000x64.Idx) (k : S100000x64.Idx)
    (hk0 : (k 0).val = t.val * 5000 + (x 0).val) (hk1 : (k 1).val = (x 1).val) :
    (iblk1 V c 2 t : Vec Ideal S5000x64 .f32) x = (V c main_v19 : S100000x64.Idx → Elt Ideal .f32) k := by
  obtain ⟨-, -, -, -, e0, e1, -⟩ := block_index t
  unfold iblk1
  rw [View.read_apply]
  show V c main_v19 _ = V c main_v19 _
  refine congrArg (V c main_v19) (funext fun a => Fin.ext ?_)
  match a with
  | ⟨0, _⟩ => show win1_2.index t (0 : Fin 2) * 5000 + 1 * (x 0).val = (k 0).val; rw [e0, hk0]; omega
  | ⟨1, _⟩ => show win1_2.index t (1 : Fin 2) * 64 + 1 * (x 1).val = (k 1).val; rw [e1, hk1]; omega

/-- The second layer's first weight matrix comes whole at every point. -/
theorem wl_block (c : Dev nD) (t : Fin cfg1.N) (x : S64x32.Idx) :
    (iblk1 V c 3 t : Vec Ideal S64x32 .f32) x = (V c main_arg5 : S64x32.Idx → Elt Ideal .f32) x := by
  obtain ⟨-, -, -, -, -, -, e0, e1, -⟩ := block_index t
  unfold iblk1
  rw [View.read_apply]
  show V c main_arg5 _ = V c main_arg5 _
  refine congrArg (V c main_arg5) (funext fun a => Fin.ext ?_)
  match a with
  | ⟨0, _⟩ => show win1_3.index t (0 : Fin 2) * 64 + 1 * (x 0).val = (x 0).val; rw [e0]; omega
  | ⟨1, _⟩ => show win1_3.index t (1 : Fin 2) * 32 + 1 * (x 1).val = (x 1).val; rw [e1]; omega

/-- The second layer's bias comes whole at every point. -/
theorem b_block (c : Dev nD) (t : Fin cfg1.N) (x : S32.Idx) :
    (iblk1 V c 4 t : Vec Ideal S32 .f32) x = (V c main_arg6 : S32.Idx → Elt Ideal .f32) x := by
  obtain ⟨-, -, -, -, -, -, -, -, e0, -⟩ := block_index t
  unfold iblk1
  rw [View.read_apply]
  show V c main_arg6 _ = V c main_arg6 _
  refine congrArg (V c main_arg6) (funext fun a => Fin.ext ?_)
  match a with
  | ⟨0, _⟩ => show win1_4.index t (0 : Fin 1) * 32 + 1 * (x 0).val = (x 0).val; rw [e0]; omega

/-- The second layer's second weight matrix comes whole at every point. -/
theorem wr_block (c : Dev nD) (t : Fin cfg1.N) (x : S64x32.Idx) :
    (iblk1 V c 5 t : Vec Ideal S64x32 .f32) x = (V c main_arg7 : S64x32.Idx → Elt Ideal .f32) x := by
  obtain ⟨-, -, -, -, -, -, -, -, -, e0, e1, -⟩ := block_index t
  unfold iblk1
  rw [View.read_apply]
  show V c main_arg7 _ = V c main_arg7 _
  refine congrArg (V c main_arg7) (funext fun a => Fin.ext ?_)
  match a with
  | ⟨0, _⟩ => show win1_5.index t (0 : Fin 2) * 64 + 1 * (x 0).val = (x 0).val; rw [e0]; omega
  | ⟨1, _⟩ => show win1_5.index t (1 : Fin 2) * 32 + 1 * (x 1).val = (x 1).val; rw [e1]; omega

/-- The region's output as one function of the arrays it is entered with: the layer, the in-degree read
    from its column. -/
def out (c : Dev nD) : Buf (Elt Ideal) ((c : Thread nD τ).loc main_v30) :=
  layer (M := 100000) (K := 64) (N := 32) (V c main_v29) (fun i => V c main_v8 (ix2 (i 0) (0 : Fin 1)))
    (V c main_v19) (V c main_arg5) (V c main_arg6) (V c main_arg7)

/-- What point `t` stores at block position `y` is the output function at row 5000 t + (row of `y`). -/
theorem stored_eq (c : Dev nD) (t : Fin cfg1.N) (y : S5000x32.Idx) (i : S100000x32.Idx)
    (hi0 : (i 0).val = t.val * 5000 + (y 0).val) (hi1 : (i 1).val = (y 1).val) :
    k1_pay1 (F := Ideal) (iblk1 V c 1 t) (iblk1 V c 0 t) (iblk1 V c 2 t) (iblk1 V c 3 t) (iblk1 V c 5 t) (iblk1 V c 4 t) y
      = out V c i := by
  obtain ⟨p, f, rfl⟩ : ∃ (p : Fin 5000) (f : Fin 32), y = ix2 p f := ⟨y 0, y 1, eq_ix2 y⟩
  obtain ⟨q, g, rfl⟩ : ∃ (q : Fin 100000) (g : Fin 32), i = ix2 q g := ⟨i 0, i 1, eq_ix2 i⟩
  have hq : q.val = t.val * 5000 + p.val := hi0
  obtain rfl : g = f := Fin.ext hi1
  refine (stored_apply _ _ _ _ _ _ p g).trans ?_
  unfold out
  rw [layer_ix2]
  unfold row
  refine congrArg₂ (· + ·) (congrArg₂ (· + ·) (Finset.sum_congr rfl fun d _ => ?_) ?_) (Finset.sum_congr rfl fun d _ => ?_)
  · rw [agg_block V c t (ix2 p d) (ix2 q d) hq rfl, wl_block V c t (ix2 d g)]
    exact congrArg (fun z => Ideal.div _ (max z one) * _) (cnt_block V c t _ _ hq rfl)
  · exact b_block V c t (ix1 g)
  · rw [x_block V c t (ix2 p d) (ix2 q d) hq rfl, wr_block V c t (ix2 d g)]

/-- What point `t` writes back is its block of the output function. -/
theorem flushed_eq (c : Dev nD) (t : Fin cfg1.N) :
    (dat1 V c).flushed 6 t = ((cfg1.win 6).blk t).view.read (Elt Ideal) (out V c) := by
  show (cfg1.win 6).cut (grid1.coords t) ((dat1 V c).after 6 t) = _
  rw [after1_6]
  unfold out1_6
  rw [View.canon_unit_zero hz2]
  simp only [View.ld_unit_zero (S := S5000x64) hz2, View.ld_unit_zero (S := S5000x1) hz2,
    View.ld_unit_zero (S := S64x32) hz2, View.ld_unit_zero (S := S32) hz1]
  obtain ⟨-, -, -, -, -, -, -, -, -, -, -, e0, e1⟩ := block_index t
  funext j
  show k1_pay1 (F := Ideal) (iblk1 V c 1 t) (iblk1 V c 0 t) (iblk1 V c 2 t) (iblk1 V c 3 t) (iblk1 V c 5 t) (iblk1 V c 4 t) j
    = out V c (((cfg1.win 6).blk t).view.emb j)
  refine stored_eq V c t j _ ?_ ?_
  · show win1_6.index t (0 : Fin 2) * 5000 + 1 * (j 0).val = t.val * 5000 + (j 0).val
    rw [e0]; omega
  · show win1_6.index t (1 : Fin 2) * 32 + 1 * (j 1).val = (j 1).val
    rw [e1]; omega

/-- An index of the output array is in point `t`'s block iff each coordinate is in the block's range on its axis. -/
theorem mem_blk (t : Fin cfg1.N) (i : S100000x32.Idx) :
    i ∈ ((cfg1.win 6).blk t).view.set ↔ ∀ a : Fin 2, win1_6.index t a * S5000x32.size a ≤ (i a).val
      ∧ (i a).val < win1_6.index t a * S5000x32.size a + S5000x32.size a := by
  show i ∈ ((View.whole main_v30).slice (win1_6.rect t)).set ↔ _
  rw [View.set_slice_whole, Rect.mem_set_unit]
  exact Iff.rfl

/-- Every node row lies in the block of the point numbered (row / 5000). -/
theorem cover (i : S100000x32.Idx) :
    ∃ t : Fin cfg1.N, (cfg1.win 6).flush t = true ∧ i ∈ ((cfg1.win 6).blk t).view.set := by
  have hi0 : (i 0).val < 100000 := (i 0).isLt
  have hi1 : (i 1).val < 32 := (i 1).isLt
  have hN : cfg1.N = 20 := N_1
  refine ⟨⟨(i 0).val / 5000, by rw [hN]; omega⟩, flush1_6 _, ?_⟩
  obtain ⟨-, -, -, -, -, -, -, -, -, -, -, e0, e1⟩ := block_index ⟨(i 0).val / 5000, by rw [hN]; omega⟩
  rw [mem_blk]
  intro a
  match a with
  | ⟨0, _⟩ =>
    show win1_6.index _ (0 : Fin 2) * 5000 ≤ (i 0).val ∧ (i 0).val < win1_6.index _ (0 : Fin 2) * 5000 + 5000
    rw [e0]; show (i 0).val / 5000 * 5000 ≤ (i 0).val ∧ (i 0).val < (i 0).val / 5000 * 5000 + 5000; omega
  | ⟨1, _⟩ =>
    show win1_6.index _ (1 : Fin 2) * 32 ≤ (i 1).val ∧ (i 1).val < win1_6.index _ (1 : Fin 2) * 32 + 32
    rw [e1]; omega

/-- The output array after the region is the layer of the arrays the region was entered with. -/
theorem final (c : Dev nD) : (dat1 V c).arrAt 6 cfg1.N = out V c :=
  (dat1 V c).arrAt_eq_of_cover 6 (out V c) (fun t _ => flushed_eq V c t) cover

end Cert.KernelIdeal.SageRegion1

end
-- ==== Proof.LibInDimLayout.lean ====
/-
  Broadcasts along unit and new axes, read at an index given by coordinates.

  A broadcast never moves a coordinate: the result at an index reads the operand at the same coordinates on the
  axes the operand really has, and at 0 on an operand axis of extent one.  So
    a one-element vector [1] spread over [a] reads its one element everywhere,
    a vector [a] given a trailing unit axis, [a, 1], reads entry i at (i, 0),
    a column [a, 1] spread over [a, b] reads row i at (i, j),
    a matrix [a, b] given a trailing unit axis, [a, b, 1], reads entry (i, j) at (i, j, 0),
    a stack of columns [a, b, 1] spread over [a, b, c] reads (i, j, 0) at (i, j, k),
  for the host's broadcast_in_dim with the identity placement of the operand's axes, and, for the vector
  broadcast, a one-by-one matrix [1, 1] spread down a column [a, 1] reads its one element everywhere.
-/
import Idealize.ShloMosaic.Lib.Pipeline.Value
import Idealize.ShloMosaic.Lib.ValueIdx

namespace Cert.LibInDimLayout

open Idealize.ShloMosaic Idealize.ShloMosaic.ValueIdx

variable {α : Type}

/-- [1] spread over [a] along axis 0: every entry is the operand's one element. -/
theorem inDim_1_a_apply {a : ℕ} (v : (⟨1, ![1]⟩ : Shape).Idx → α)
    (h : (⟨1, ![1]⟩ : Shape).BroadcastsInDim ⟨1, ![a]⟩ ![0]) (i : Fin a) :
    broadcastInDim ⟨1, ![a]⟩ ![0] h v (ix1 i) = v (ix1 (0 : Fin 1)) := by
  refine broadcastInDim_apply _ h v (ix1 i) (ix1 (0 : Fin 1)) fun ax => ?_
  match ax with
  | ⟨0, _⟩ =>
    show (0 : ℕ) = if (1 : ℕ) = 1 then 0 else _
    rw [if_pos rfl]

/-- [a] placed on axis 0 of [a, 1]: entry (i, u) is the operand at i. -/
theorem inDim_a_a1_apply {a : ℕ} (v : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h v (ix2 i u) = v (ix1 i) := by
  refine broadcastInDim_apply _ h v (ix2 i u) (ix1 i) fun ax => ?_
  match ax with
  | ⟨0, _⟩ =>
    show i.val = if a = 1 then 0 else i.val
    split
    · have := i.isLt; omega
    · rfl

/-- A column [a, 1] spread over [a, b], axes kept in place: entry (i, j) is the column at (i, 0). -/
theorem inDim_a1_ab_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply _ h v (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else _
    rw [if_pos rfl]

/-- A matrix [a, b] placed on the first two axes of [a, b, 1]: entry (i, j, u) is the operand at (i, j). -/
theorem inDim_ab_ab1_apply {a b : ℕ} (v : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h v (ix3 i j u) = v (ix2 i j) := by
  refine broadcastInDim_apply _ h v (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [a, b, 1] spread over [a, b, c], axes kept in place: entry (i, j, k) is the operand at (i, j, 0). -/
theorem inDim_ab1_abc_apply {a b c : ℕ} (v : (⟨3, ![a, b, 1]⟩ : Shape).Idx → α)
    (h : (⟨3, ![a, b, 1]⟩ : Shape).BroadcastsInDim ⟨3, ![a, b, c]⟩ ![0, 1, 2]) (i : Fin a) (j : Fin b) (k : Fin c) :
    broadcastInDim ⟨3, ![a, b, c]⟩ ![0, 1, 2] h v (ix3 i j k) = v (ix3 i j (0 : Fin 1)) := by
  refine broadcastInDim_apply _ h v (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else _
    rw [if_pos rfl]

/-- The vector broadcast of a one-by-one matrix down a column [a, 1]: every entry is the one element. -/
theorem broadcastTo_11_a1_apply {a : ℕ} (v : (⟨2, ![1, 1]⟩ : Shape).Idx → α)
    (h : (⟨2, ![1, 1]⟩ : Shape).Broadcasts ⟨2, ![a, 1]⟩) (i : Fin a) (u : Fin 1) :
    broadcastTo ⟨2, ![a, 1]⟩ v h (ix2 i u) = v (ix2 (0 : Fin 1) (0 : Fin 1)) := by
  refine broadcastTo_apply v h (ix2 i u) (ix2 (0 : Fin 1) (0 : Fin 1)) fun ax => ?_
  match ax with
  | ⟨0, _⟩ =>
    show (0 : ℕ) = if (1 : ℕ) = 1 then 0 else _
    rw [if_pos rfl]
  | ⟨1, _⟩ =>
    show (0 : ℕ) = if (1 : ℕ) = 1 then 0 else _
    rw [if_pos rfl]

end Cert.LibInDimLayout
-- ==== Proof.SageKernel.lean ====
/-
  The two-region program's result is the two-layer network of its arguments.

  Before the first region the program computes, from the edge list, the in-degree vector (laid out as a column) and the
  neighbour sums of the features; between the regions, the neighbour sums of the first region's output.  As in the
  array program these maps are carried as written, never opened.  The first region leaves the rectified first layer of
  what it was entered with, the second region the second layer of what it was entered with; reading each region's
  entry contents back through the host operations to the launch contents gives the network of the arguments.
-/
import proofs.«164693_j41841571397936_2_alg».proof.Proof.SageRun
import proofs.«164693_j41841571397936_2_alg».proof.Proof.SageRegion0
import proofs.«164693_j41841571397936_2_alg».proof.Proof.SageRegion1
import proofs.«164693_j41841571397936_2_alg».proof.Proof.LibInDimLayout
import Idealize.ShloMosaic.Lib.StableHlo.Run

noncomputable section

namespace Cert.KernelIdeal.Sage

open Cert.KernelIdeal Cert.KernelIdeal.Gen Idealize.ShloMosaic Idealize.ShloMosaic.TcCoe Idealize.SL.Sem
open Idealize.ShloMosaic.StableHlo Idealize.ShloMosaic.ValueIdx
open Cert.SageRows

/-- The edge list: two rows of node numbers. -/
abbrev Edges : Type := (⟨S2x1600000, .i32⟩ : BufTy).Contents (Elt Ideal)

/-- The destination of every edge, as a vector of indices. -/
def dst (e : Edges) : (⟨S1600000, .i32⟩ : BufTy).Contents (Elt Ideal) :=
  shapeCast _ (extractStridedSlice S1x1600000 ![1, 0] e slices_S2x1600000_S1x1600000_1_0) shapeCasts_S1x1600000_S1600000

/-- The source of every edge as written, as a vector of indices. -/
def src (e : Edges) : (⟨S1600000, .i32⟩ : BufTy).Contents (Elt Ideal) :=
  shapeCast _ (extractStridedSlice S1x1600000 ![0, 0] e slices_S2x1600000_S1x1600000_0_0) shapeCasts_S1x1600000_S1600000

/-- The destination of every edge, as a column of indices. -/
def dstIdx (e : Edges) : (⟨S1600000x1, .i32⟩ : BufTy).Contents (Elt Ideal) :=
  broadcastInDim S1600000x1 ![0] bcast_S1600000_S1600000x1_0 (dst e)

/-- The source of every edge, a negative number counted from the end, as a column of indices. -/
def srcIdx (e : Edges) : (⟨S1600000x1, .i32⟩ : BufTy).Contents (Elt Ideal) :=
  broadcastInDim S1600000x1 ![0] bcast_S1600000_S1600000x1_0
    (select (cmpi .slt (src e) (broadcastInDim S1600000 ![] bcast_S_S1600000 (constantI S_ 32 0#32)))
      (addi (src e) (broadcastInDim S1600000 ![] bcast_S_S1600000 (constantI S_ 32 100000#32))) (src e))

/-- The in-degree of every node: ones summed at the destinations. -/
def cnt (e : Edges) : FVec Ideal S100000 .f32 :=
  Host.scatterAdd scatter_S100000_S1600000x1_S1600000_n_0_0_1
    (broadcastInDim S100000 ![] bcast_S_S100000 (constant (F := Ideal) S_ .f32 0x00000000#32)) (dstIdx e)
    (broadcastInDim S1600000 ![] bcast_S_S1600000 (constant (F := Ideal) S_ .f32 0x3F800000#32))

/-- The neighbour sums of a 32-channel feature matrix. -/
def agg32 (e : Edges) (x : FVec Ideal S100000x32 .f32) : FVec Ideal S100000x32 .f32 :=
  Host.scatterAdd scatter_S100000x32_S1600000x1_S1600000x32_1_0_0_1
    (broadcastInDim S100000x32 ![] bcast_S_S100000x32 (constant (F := Ideal) S_ .f32 0x00000000#32)) (dstIdx e)
    (Host.gather gather_S100000x32_S1600000x1_S1600000x32_1_0_n_n_0_1_132 x (srcIdx e))

/-- The neighbour sums of a 64-channel feature matrix. -/
def agg64 (e : Edges) (h : FVec Ideal S100000x64 .f32) : FVec Ideal S100000x64 .f32 :=
  Host.scatterAdd scatter_S100000x64_S1600000x1_S1600000x64_1_0_0_1
    (broadcastInDim S100000x64 ![] bcast_S_S100000x64 (constant (F := Ideal) S_ .f32 0x00000000#32)) (dstIdx e)
    (Host.gather gather_S100000x64_S1600000x1_S1600000x64_1_0_n_n_0_1_164 h (srcIdx e))

variable (m : (ℓ : Loc nD τ sig) → Buf (Elt Ideal) ℓ) (ρ : Dev nD → PrngReg)

/-! ## The first region's entry contents -/

set_option maxHeartbeats 4000000 in
/-- The neighbour sums the first region is entered with. -/
theorem entry0_agg (c : Dev nD) :
    V1 m ρ c main_v18 = agg32 (m ((c.tc : Thread nD τ).loc main_arg1)) (m ((c.tc : Thread nD τ).loc main_arg0)) := by
  dsimp only [V1, W1, hostOps0]
  after_results_simp
  rfl

set_option maxHeartbeats 4000000 in
/-- The in-degree column the first region is entered with. -/
theorem entry0_cnt (c : Dev nD) :
    V1 m ρ c main_v8 = broadcastInDim S100000x1 ![0] bcast_S100000_S100000x1_0 (cnt (m ((c.tc : Thread nD τ).loc main_arg1))) := by
  dsimp only [V1, W1, hostOps0]
  after_results_simp
  rfl

set_option maxHeartbeats 4000000 in
/-- The argument arrays the first region is entered with are the launch contents. -/
theorem entry0_args (c : Dev nD) :
    V1 m ρ c main_arg0 = m ((c.tc : Thread nD τ).loc main_arg0) ∧ V1 m ρ c main_arg2 = m ((c.tc : Thread nD τ).loc main_arg2)
    ∧ V1 m ρ c main_arg3 = m ((c.tc : Thread nD τ).loc main_arg3) ∧ V1 m ρ c main_arg4 = m ((c.tc : Thread nD τ).loc main_arg4) := by
  refine ⟨?_, ?_, ?_, ?_⟩ <;> (dsimp only [V1, W1, hostOps0]; after_results_simp <;> rfl)

/-! ## The first region's result -/

/-- The in-degree column read back at (node, 0) is the in-degree vector. -/
theorem column_read (e : Edges) :
    (fun i : S100000.Idx => broadcastInDim S100000x1 ![0] bcast_S100000_S100000x1_0 (cnt e) (ix2 (i 0) (0 : Fin 1))) = cnt e := by
  funext i
  obtain ⟨p, rfl⟩ : ∃ p : Fin 100000, i = ix1 p := ⟨i 0, eq_ix1 i⟩
  exact Cert.LibInDimLayout.inDim_a_a1_apply (cnt e) bcast_S100000_S100000x1_0 p (0 : Fin 1)

/-- The rectified first layer of the arguments: the hidden features. -/
def hidden (e : Edges) (x : FVec Ideal S100000x32 .f32) (wl1 : FVec Ideal S32x64 .f32) (b1 : FVec Ideal S64 .f32)
    (wr1 : FVec Ideal S32x64 .f32) : FVec Ideal S100000x64 .f32 :=
  layerRelu (agg32 e x) (cnt e) x wl1 b1 wr1

/-- After the first region its output array holds the hidden features. -/
theorem exit0 (c : Dev nD) :
    W2 m ρ c (Proc.devRef .tc main_v19)
      = hidden (m ((c.tc : Thread nD τ).loc main_arg1)) (m ((c.tc : Thread nD τ).loc main_arg0))
          (m ((c.tc : Thread nD τ).loc main_arg2)) (m ((c.tc : Thread nD τ).loc main_arg3)) (m ((c.tc : Thread nD τ).loc main_arg4)) := by
  refine (W2_arr m ρ c 6).trans ((Cert.KernelIdeal.SageRegion0.final (V1 m ρ) c).trans ?_)
  obtain ⟨a0, a2, a3, a4⟩ := entry0_args m ρ c
  unfold Cert.KernelIdeal.SageRegion0.out hidden
  rw [entry0_agg, entry0_cnt, a0, a2, a3, a4, column_read]

/-! ## The second region's entry contents -/

set_option maxHeartbeats 4000000 in
/-- The edge destinations and sources, untouched by the first region. -/
theorem mid_edges (c : Dev nD) :
    W2 m ρ c (Proc.devRef .tc main_v3) = dst (m ((c.tc : Thread nD τ).loc main_arg1))
    ∧ W2 m ρ c (Proc.devRef .tc main_v1) = src (m ((c.tc : Thread nD τ).loc main_arg1)) := by
  refine ⟨(W2_of_ne m ρ c main_v3 (by decide)).trans ?_, (W2_of_ne m ρ c main_v1 (by decide)).trans ?_⟩ <;>
    (dsimp only [W1, hostOps0]; after_results_simp <;> rfl)

/-- The in-degree column, which the first region only reads. -/
theorem mid_cnt (c : Dev nD) :
    W2 m ρ c (Proc.devRef .tc main_v8)
      = broadcastInDim S100000x1 ![0] bcast_S100000_S100000x1_0 (cnt (m ((c.tc : Thread nD τ).loc main_arg1))) :=
  (W2_arr m ρ c 1).trans ((((dat0 (V1 m ρ) c).arrAt_in 1 rfl _).trans (A_eq0 (V1 m ρ) c 1)).trans (entry0_cnt m ρ c))

set_option maxHeartbeats 4000000 in
/-- The second layer's weights and bias, untouched by the first region. -/
theorem mid_args (c : Dev nD) :
    W2 m ρ c (Proc.devRef .tc main_arg5) = m ((c.tc : Thread nD τ).loc main_arg5)
    ∧ W2 m ρ c (Proc.devRef .tc main_arg6) = m ((c.tc : Thread nD τ).loc main_arg6)
    ∧ W2 m ρ c (Proc.devRef .tc main_arg7) = m ((c.tc : Thread nD τ).loc main_arg7) := by
  refine ⟨(W2_of_ne m ρ c main_arg5 (by decide)).trans ?_, (W2_of_ne m ρ c main_arg6 (by decide)).trans ?_,
    (W2_of_ne m ρ c main_arg7 (by decide)).trans ?_⟩ <;>
    (dsimp only [W1, hostOps0]; after_results_simp <;> rfl)

set_option maxHeartbeats 4000000 in
/-- The neighbour sums the second region is entered with: those of the first region's output. -/
theorem entry1_agg (c : Dev nD) :
    V3 m ρ c main_v29 = agg64 (m ((c.tc : Thread nD τ).loc main_arg1)) (W2 m ρ c (Proc.devRef .tc main_v19)) := by
  obtain ⟨ed, es⟩ := mid_edges m ρ c
  dsimp only [V3, W3, hostOps1]
  after_results_simp
  rw [ed, es]
  rfl

set_option maxHeartbeats 4000000 in
/-- The other arrays the second region is entered with are what the first region left. -/
theorem entry1_rest (c : Dev nD) :
    V3 m ρ c main_v8 = W2 m ρ c (Proc.devRef .tc main_v8) ∧ V3 m ρ c main_v19 = W2 m ρ c (Proc.devRef .tc main_v19)
    ∧ V3 m ρ c main_arg5 = W2 m ρ c (Proc.devRef .tc main_arg5) ∧ V3 m ρ c main_arg6 = W2 m ρ c (Proc.devRef .tc main_arg6)
    ∧ V3 m ρ c main_arg7 = W2 m ρ c (Proc.devRef .tc main_arg7) := by
  refine ⟨?_, ?_, ?_, ?_, ?_⟩ <;> (dsimp only [V3, W3, hostOps1]; after_results_simp <;> rfl)

/-! ## The result -/

/-- After the second region the result array holds the network of the arguments. -/
theorem result (c : Dev nD) :
    W4 m ρ c (Proc.devRef .tc main_v30)
      = net (cnt (m ((c.tc : Thread nD τ).loc main_arg1))) (agg32 (m ((c.tc : Thread nD τ).loc main_arg1)))
          (agg64 (m ((c.tc : Thread nD τ).loc main_arg1))) (m ((c.tc : Thread nD τ).loc main_arg0))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  refine (W4_arr m ρ c 6).trans ((Cert.KernelIdeal.SageRegion1.final (V3 m ρ) c).trans ?_)
  obtain ⟨r8, r19, r5, r6, r7⟩ := entry1_rest m ρ c
  obtain ⟨a5, a6, a7⟩ := mid_args m ρ c
  unfold Cert.KernelIdeal.SageRegion1.out net
  rw [entry1_agg, r8, r19, r5, r6, r7, a5, a6, a7, mid_cnt, exit0, column_read]
  rfl

/-- The program's run: the result array ends at the network of the arguments, the arguments unchanged. -/
theorem run : θ_run defs (onTc (τ := τ) (main (F := Ideal))) ⟨m, fun _ => 0, ρ⟩ (fun r => ∀ c : Dev nD,
      r.2.mem ((c.tc : Thread nD τ).loc main_v30)
        = net (cnt (m ((c.tc : Thread nD τ).loc main_arg1))) (agg32 (m ((c.tc : Thread nD τ).loc main_arg1)))
            (agg64 (m ((c.tc : Thread nD τ).loc main_arg1))) (m ((c.tc : Thread nD τ).loc main_arg0))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result m ρ c), (h c).2⟩)
    (Cert.KernelIdeal.SageRun.run_main (F := Ideal) m ρ)

end Cert.KernelIdeal.Sage

end
-- ==== Proof.LibInDimRow.lean ====
/-
  Two broadcasts of a bias row, read at an index given by coordinates.

  A vector [b] placed on axis 1 of [1, b] reads entry j at (0, j); a row [1, b] spread over [a, b] with its axes kept in
  place reads its one row at (i, j), whatever the row i.  Both are the host's broadcast_in_dim: a broadcast never moves a
  coordinate, it reads the operand at the same coordinate on each axis the operand really has and at 0 on an operand
  axis of extent one.
-/
import Idealize.ShloMosaic.Lib.Pipeline.Value
import Idealize.ShloMosaic.Lib.ValueIdx

namespace Cert.LibInDimRow

open Idealize.ShloMosaic Idealize.ShloMosaic.ValueIdx

variable {α : Type}

/-- [b] placed on axis 1 of [1, b]: entry (u, j) is the operand at j. -/
theorem inDim_b_1b_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- A row [1, b] spread over [a, b], axes kept in place: entry (i, j) is the row at (0, j). -/
theorem inDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ =>
    show (0 : ℕ) = if (1 : ℕ) = 1 then 0 else _
    rw [if_pos rfl]
  | ⟨1, _⟩ =>
    show j.val = if b = 1 then 0 else j.val
    split
    · have := j.isLt; omega
    · rfl

end Cert.LibInDimRow
-- ==== Proof.SageHostForm.lean ====
/-
  The layer as an array program computes it on the whole graph: the in-degree vector clamped below by one, given a
  trailing unit axis and spread over the channels, the neighbour sums divided by it entry by entry, two matrix
  products, the bias vector placed as a row and spread over the rows.  Read at node p and channel f this is the layer's
  row formula: a product is the inner product on the extended reals, and the broadcasts only re-index.
-/
import proofs.«164693_j41841571397936_2_alg».proof.Proof.SageRows
import proofs.«164693_j41841571397936_2_alg».proof.Proof.LibInDimLayout
import proofs.«164693_j41841571397936_2_alg».proof.Proof.LibInDimRow
import proofs.«164693_j41841571397936_2_alg».proof.Proof.LibInnerProducts

noncomputable section

namespace Cert.SageHostForm

open Idealize.ShloMosaic Idealize.ShloMosaic.ValueIdx Cert.SageRows
open scoped BigOperators

/-- The array program of one layer, as a term of its operands. -/
def hostLayer {M K N : ℕ} (D : DotDims ⟨2, ![M, K]⟩ ⟨2, ![K, N]⟩ ⟨2, ![M, N]⟩)
    (h0 : (⟨0, ![]⟩ : Shape).BroadcastsInDim ⟨1, ![M]⟩ ![]) (h1 : (⟨1, ![M]⟩ : Shape).BroadcastsInDim ⟨2, ![M, 1]⟩ ![0])
    (h2 : (⟨2, ![M, 1]⟩ : Shape).BroadcastsInDim ⟨2, ![M, K]⟩ ![0, 1])
    (hb1 : (⟨1, ![N]⟩ : Shape).BroadcastsInDim ⟨2, ![1, N]⟩ ![1])
    (hb2 : (⟨2, ![1, N]⟩ : Shape).BroadcastsInDim ⟨2, ![M, N]⟩ ![0, 1])
    (agg : FVec Ideal ⟨2, ![M, K]⟩ .f32) (cnt : FVec Ideal ⟨1, ![M]⟩ .f32) (x : FVec Ideal ⟨2, ![M, K]⟩ .f32)
    (wl : FVec Ideal ⟨2, ![K, N]⟩ .f32) (b : FVec Ideal ⟨1, ![N]⟩ .f32) (wr : FVec Ideal ⟨2, ![K, N]⟩ .f32) :
    FVec Ideal ⟨2, ![M, N]⟩ .f32 :=
  addf (addf (Host.dotGeneral D none
          (Host.divf agg (broadcastInDim ⟨2, ![M, K]⟩ ![0, 1] h2 (broadcastInDim ⟨2, ![M, 1]⟩ ![0] h1
            (maximumf cnt (broadcastInDim ⟨1, ![M]⟩ ![] h0 (constant (F := Ideal) ⟨0, ![]⟩ .f32 0x3F800000#32)))))) wl)
        (broadcastInDim ⟨2, ![M, N]⟩ ![0, 1] hb2 (broadcastInDim ⟨2, ![1, N]⟩ ![1] hb1 b)))
    (Host.dotGeneral D none x wr)

/-- The array program at node `p` and channel `f` is the row formula. -/
theorem hostLayer_apply {M K N : ℕ} (D : DotDims ⟨2, ![M, K]⟩ ⟨2, ![K, N]⟩ ⟨2, ![M, N]⟩) (hD : D = DotDims.plain M K N)
    (h0 : (⟨0, ![]⟩ : Shape).BroadcastsInDim ⟨1, ![M]⟩ ![]) (h1 : (⟨1, ![M]⟩ : Shape).BroadcastsInDim ⟨2, ![M, 1]⟩ ![0])
    (h2 : (⟨2, ![M, 1]⟩ : Shape).BroadcastsInDim ⟨2, ![M, K]⟩ ![0, 1])
    (hb1 : (⟨1, ![N]⟩ : Shape).BroadcastsInDim ⟨2, ![1, N]⟩ ![1])
    (hb2 : (⟨2, ![1, N]⟩ : Shape).BroadcastsInDim ⟨2, ![M, N]⟩ ![0, 1])
    (agg : FVec Ideal ⟨2, ![M, K]⟩ .f32) (cnt : FVec Ideal ⟨1, ![M]⟩ .f32) (x : FVec Ideal ⟨2, ![M, K]⟩ .f32)
    (wl : FVec Ideal ⟨2, ![K, N]⟩ .f32) (b : FVec Ideal ⟨1, ![N]⟩ .f32) (wr : FVec Ideal ⟨2, ![K, N]⟩ .f32)
    (p : Fin M) (f : Fin N) :
    hostLayer D h0 h1 h2 hb1 hb2 agg cnt x wl b wr (ix2 p f) = row agg cnt x wl b wr p f := by
  unfold hostLayer
  rw [addf_apply, addf_apply, InnerProducts.dotGeneral_apply D hD, InnerProducts.dotGeneral_apply D hD,
    LibInDimRow.inDim_1b_ab_apply, LibInDimRow.inDim_b_1b_apply]
  unfold row
  refine congrArg₂ (· + ·) (congrArg₂ (· + ·) (Finset.sum_congr rfl fun d _ => ?_) rfl) rfl
  refine congrArg (· * wl (ix2 d f)) ?_
  show Ideal.div (agg (ix2 p d)) _ = _
  rw [LibInDimLayout.inDim_a1_ab_apply, LibInDimLayout.inDim_a_a1_apply, maximumf_apply,
    broadcastInDim_apply _ h0 _ (ix1 p) ix0 (fun a => a.elim0)]
  rfl

/-- As whole arrays. -/
theorem hostLayer_eq {M K N : ℕ} (D : DotDims ⟨2, ![M, K]⟩ ⟨2, ![K, N]⟩ ⟨2, ![M, N]⟩) (hD : D = DotDims.plain M K N)
    (h0 : (⟨0, ![]⟩ : Shape).BroadcastsInDim ⟨1, ![M]⟩ ![]) (h1 : (⟨1, ![M]⟩ : Shape).BroadcastsInDim ⟨2, ![M, 1]⟩ ![0])
    (h2 : (⟨2, ![M, 1]⟩ : Shape).BroadcastsInDim ⟨2, ![M, K]⟩ ![0, 1])
    (hb1 : (⟨1, ![N]⟩ : Shape).BroadcastsInDim ⟨2, ![1, N]⟩ ![1])
    (hb2 : (⟨2, ![1, N]⟩ : Shape).BroadcastsInDim ⟨2, ![M, N]⟩ ![0, 1])
    (agg : FVec Ideal ⟨2, ![M, K]⟩ .f32) (cnt : FVec Ideal ⟨1, ![M]⟩ .f32) (x : FVec Ideal ⟨2, ![M, K]⟩ .f32)
    (wl : FVec Ideal ⟨2, ![K, N]⟩ .f32) (b : FVec Ideal ⟨1, ![N]⟩ .f32) (wr : FVec Ideal ⟨2, ![K, N]⟩ .f32) :
    hostLayer D h0 h1 h2 hb1 hb2 agg cnt x wl b wr = layer agg cnt x wl b wr := by
  funext j
  obtain ⟨p, f, rfl⟩ : ∃ (p : Fin M) (f : Fin N), j = ix2 p f := ⟨j 0, j 1, eq_ix2 j⟩
  rw [hostLayer_apply D hD, layer_ix2]

/-- Followed by the host's rectifier (a maximum with a zero spread over the array). -/
theorem hostLayerRelu_eq {M K N : ℕ} (D : DotDims ⟨2, ![M, K]⟩ ⟨2, ![K, N]⟩ ⟨2, ![M, N]⟩) (hD : D = DotDims.plain M K N)
    (h0 : (⟨0, ![]⟩ : Shape).BroadcastsInDim ⟨1, ![M]⟩ ![]) (h1 : (⟨1, ![M]⟩ : Shape).BroadcastsInDim ⟨2, ![M, 1]⟩ ![0])
    (h2 : (⟨2, ![M, 1]⟩ : Shape).BroadcastsInDim ⟨2, ![M, K]⟩ ![0, 1])
    (hb1 : (⟨1, ![N]⟩ : Shape).BroadcastsInDim ⟨2, ![1, N]⟩ ![1])
    (hb2 : (⟨2, ![1, N]⟩ : Shape).BroadcastsInDim ⟨2, ![M, N]⟩ ![0, 1])
    (hz : (⟨0, ![]⟩ : Shape).BroadcastsInDim ⟨2, ![M, N]⟩ ![])
    (agg : FVec Ideal ⟨2, ![M, K]⟩ .f32) (cnt : FVec Ideal ⟨1, ![M]⟩ .f32) (x : FVec Ideal ⟨2, ![M, K]⟩ .f32)
    (wl : FVec Ideal ⟨2, ![K, N]⟩ .f32) (b : FVec Ideal ⟨1, ![N]⟩ .f32) (wr : FVec Ideal ⟨2, ![K, N]⟩ .f32) :
    maximumf (hostLayer D h0 h1 h2 hb1 hb2 agg cnt x wl b wr)
        (broadcastInDim ⟨2, ![M, N]⟩ ![] hz (constant (F := Ideal) ⟨0, ![]⟩ .f32 0x00000000#32))
      = layerRelu agg cnt x wl b wr := by
  funext j
  obtain ⟨p, f, rfl⟩ : ∃ (p : Fin M) (f : Fin N), j = ix2 p f := ⟨j 0, j 1, eq_ix2 j⟩
  rw [maximumf_apply, hostLayer_apply D hD, layerRelu_ix2, broadcastInDim_apply _ hz _ (ix2 p f) ix0 (fun a => a.elim0)]
  rfl

end Cert.SageHostForm

end
-- ==== Proof.SageReference.lean ====
/-
  The array program's result is the two-layer network of its arguments.

  Its edge list gives, per edge, a source node (row 0, a negative index counted from the end) and a destination node
  (row 1).  The in-degree vector is the scatter-sum of ones at the destinations; the neighbour sums of a feature matrix
  are the scatter-sum, at the destinations, of the rows gathered at the sources.  These three maps are carried here as
  they are written, never opened: the network's arithmetic does not depend on what they compute.  Each layer of the
  program is then the array form of the layer, read row by row.
-/
import proofs.«164693_j41841571397936_2_alg».proof.Proof.Gen.ReferenceIdeal.Run
import proofs.«164693_j41841571397936_2_alg».proof.Proof.SageHostForm

noncomputable section

namespace Cert.ReferenceIdeal.Sage

open Cert.ReferenceIdeal Cert.ReferenceIdeal.Gen Idealize.ShloMosaic Idealize.ShloMosaic.TcCoe Idealize.SL.Sem
open Cert.SageRows Cert.SageHostForm

/-- The edge list: two rows of node numbers. -/
abbrev Edges : Type := (⟨S2x1600000, .i32⟩ : BufTy).Contents (Elt Ideal)

/-- The destination of every edge, as a column of indices. -/
def dstIdx (e : Edges) : (⟨S1600000x1, .i32⟩ : BufTy).Contents (Elt Ideal) :=
  broadcastInDim S1600000x1 ![0] bcast_S1600000_S1600000x1_0
    (shapeCast _ (extractStridedSlice S1x1600000 ![1, 0] e slices_S2x1600000_S1x1600000_1_0) shapeCasts_S1x1600000_S1600000)

/-- The source of every edge, a negative number counted from the end, as a column of indices. -/
def srcIdx (e : Edges) : (⟨S1600000x1, .i32⟩ : BufTy).Contents (Elt Ideal) :=
  broadcastInDim S1600000x1 ![0] bcast_S1600000_S1600000x1_0
    (select (cmpi .slt (shapeCast _ (extractStridedSlice S1x1600000 ![0, 0] e slices_S2x1600000_S1x1600000_0_0) shapeCasts_S1x1600000_S1600000)
        (broadcastInDim S1600000 ![] bcast_S_S1600000 (constantI S_ 32 0#32)))
      (addi (shapeCast _ (extractStridedSlice S1x1600000 ![0, 0] e slices_S2x1600000_S1x1600000_0_0) shapeCasts_S1x1600000_S1600000)
        (broadcastInDim S1600000 ![] bcast_S_S1600000 (constantI S_ 32 100000#32)))
      (shapeCast _ (extractStridedSlice S1x1600000 ![0, 0] e slices_S2x1600000_S1x1600000_0_0) shapeCasts_S1x1600000_S1600000))

/-- The in-degree of every node: ones summed at the destinations. -/
def cnt (e : Edges) : FVec Ideal S100000 .f32 :=
  Host.scatterAdd scatter_S100000_S1600000x1_S1600000_n_0_0_1
    (broadcastInDim S100000 ![] bcast_S_S100000 (constant (F := Ideal) S_ .f32 0x00000000#32)) (dstIdx e)
    (broadcastInDim S1600000 ![] bcast_S_S1600000 (constant (F := Ideal) S_ .f32 0x3F800000#32))

/-- The neighbour sums of a 32-channel feature matrix. -/
def agg32 (e : Edges) (x : FVec Ideal S100000x32 .f32) : FVec Ideal S100000x32 .f32 :=
  Host.scatterAdd scatter_S100000x32_S1600000x1_S1600000x32_1_0_0_1
    (broadcastInDim S100000x32 ![] bcast_S_S100000x32 (constant (F := Ideal) S_ .f32 0x00000000#32)) (dstIdx e)
    (Host.gather gather_S100000x32_S1600000x1_S1600000x32_1_0_n_n_0_1_132 x (srcIdx e))

/-- The neighbour sums of a 64-channel feature matrix. -/
def agg64 (e : Edges) (h : FVec Ideal S100000x64 .f32) : FVec Ideal S100000x64 .f32 :=
  Host.scatterAdd scatter_S100000x64_S1600000x1_S1600000x64_1_0_0_1
    (broadcastInDim S100000x64 ![] bcast_S_S100000x64 (constant (F := Ideal) S_ .f32 0x00000000#32)) (dstIdx e)
    (Host.gather gather_S100000x64_S1600000x1_S1600000x64_1_0_n_n_0_1_164 h (srcIdx e))

/-- The first layer's rectified output as the program writes it. -/
def hidden (e : Edges) (x : FVec Ideal S100000x32 .f32) (wl1 : FVec Ideal S32x64 .f32) (b1 : FVec Ideal S64 .f32)
    (wr1 : FVec Ideal S32x64 .f32) : FVec Ideal S100000x64 .f32 :=
  maximumf (hostLayer dot_S100000x32_S32x64_S100000x64_1_0_0_1_n_n bcast_S_S100000 bcast_S100000_S100000x1_0
      bcast_S100000x1_S100000x32_0_1 bcast_S64_S1x64_1 bcast_S1x64_S100000x64_0_1 (agg32 e x) (cnt e) x wl1 b1 wr1)
    (broadcastInDim S100000x64 ![] bcast_S_S100000x64 (constant (F := Ideal) S_ .f32 0x00000000#32))

set_option maxRecDepth 8192 in
/-- The program's result term is the second layer's array form over the first's. -/
theorem result_term (m : (ℓ : Loc nD τ sig) → Buf (Elt Ideal) ℓ) (c : Dev nD) :
    Cert.ReferenceIdeal.Value.res_main_v54 (F := Ideal) m c
      = hostLayer dot_S100000x64_S64x32_S100000x32_1_0_0_1_n_n bcast_S_S100000 bcast_S100000_S100000x1_0
          bcast_S100000x1_S100000x64_0_1 bcast_S32_S1x32_1 bcast_S1x32_S100000x32_0_1
          (agg64 (m ((c.tc : Thread nD τ).loc main_arg1))
            (hidden (m ((c.tc : Thread nD τ).loc main_arg1)) (m ((c.tc : Thread nD τ).loc main_arg0))
              (m ((c.tc : Thread nD τ).loc main_arg2)) (m ((c.tc : Thread nD τ).loc main_arg3)) (m ((c.tc : Thread nD τ).loc main_arg4))))
          (cnt (m ((c.tc : Thread nD τ).loc main_arg1)))
          (hidden (m ((c.tc : Thread nD τ).loc main_arg1)) (m ((c.tc : Thread nD τ).loc main_arg0))
            (m ((c.tc : Thread nD τ).loc main_arg2)) (m ((c.tc : Thread nD τ).loc main_arg3)) (m ((c.tc : Thread nD τ).loc main_arg4)))
          (m ((c.tc : Thread nD τ).loc main_arg5)) (m ((c.tc : Thread nD τ).loc main_arg6)) (m ((c.tc : Thread nD τ).loc main_arg7)) := by
  unfold Cert.ReferenceIdeal.Value.res_main_v54 hidden hostLayer agg64 agg32 cnt dstIdx srcIdx
  rfl

/-- The first layer's output is the rectified layer of the neighbour sums. -/
theorem hidden_eq (e : Edges) (x : FVec Ideal S100000x32 .f32) (wl1 : FVec Ideal S32x64 .f32) (b1 : FVec Ideal S64 .f32)
    (wr1 : FVec Ideal S32x64 .f32) : hidden e x wl1 b1 wr1 = layerRelu (agg32 e x) (cnt e) x wl1 b1 wr1 :=
  hostLayerRelu_eq _ rfl _ _ _ _ _ _ _ _ _ _ _ _

/-- The program's result is the network. -/
theorem result_eq (m : (ℓ : Loc nD τ sig) → Buf (Elt Ideal) ℓ) (c : Dev nD) :
    Cert.ReferenceIdeal.Value.res_main_v54 (F := Ideal) m c
      = net (cnt (m ((c.tc : Thread nD τ).loc main_arg1))) (agg32 (m ((c.tc : Thread nD τ).loc main_arg1)))
          (agg64 (m ((c.tc : Thread nD τ).loc main_arg1))) (m ((c.tc : Thread nD τ).loc main_arg0))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  rw [result_term, hidden_eq]
  exact hostLayer_eq _ rfl _ _ _ _ _ _ _ _ _ _ _

end Cert.ReferenceIdeal.Sage

end
-- ==== Proof.lean ====
/-
  A two-layer mean-aggregating graph network, computed two ways, is one function of its arguments.

  The arguments are a feature matrix x (100000 nodes, 32 channels), an edge list (1600000 edges, a source and a
  destination node each) and, per layer, two weight matrices and a bias.  With cnt(p) the in-degree of node p and
  A(h)(p, ·) the sum of the rows h(s, ·) over the edges s -> p, one layer maps h to

      ( A(h) / max(cnt, 1) ) · Wl  +  b  +  h · Wr,

  added in this grouping; the network is layer 2 applied to the rectified layer 1.

  One program computes each layer's arithmetic in a kernel region, 5000 node rows at a time, between host operations
  that compute cnt and A; the other computes everything with whole-array operations.  On the extended reals a change of
  float format is the identity and a matrix product is the exact inner product, so each region's block is the layer's
  row formula of its rows, the blocks tile the node axis, and each program's result is the network read row by row
  (SageKernel, SageReference over SageRows).  The two programs write cnt and A with the same operations on the same
  operands, so the two results are equal term by term; no algebraic law and no finiteness of the inputs is used.
-/
import proofs.«164693_j41841571397936_2_alg».proof.Defs
import proofs.«164693_j41841571397936_2_alg».proof.Proof.Gen.Kernel
import proofs.«164693_j41841571397936_2_alg».proof.Proof.Gen.Kernel.Skeleton
import proofs.«164693_j41841571397936_2_alg».proof.Proof.Gen.Kernel.Launch
import proofs.«164693_j41841571397936_2_alg».proof.Proof.Gen.Kernel.Points
import proofs.«164693_j41841571397936_2_alg».proof.Proof.Gen.Kernel.Frame
import proofs.«164693_j41841571397936_2_alg».proof.Proof.Gen.KernelIdeal
import proofs.«164693_j41841571397936_2_alg».proof.Proof.Gen.KernelIdeal.Skeleton
import proofs.«164693_j41841571397936_2_alg».proof.Proof.Gen.KernelIdeal.Launch
import proofs.«164693_j41841571397936_2_alg».proof.Proof.Gen.KernelIdeal.Points
import proofs.«164693_j41841571397936_2_alg».proof.Proof.Gen.KernelIdeal.Frame
import proofs.«164693_j41841571397936_2_alg».proof.Proof.Gen.ReferenceIdeal
import proofs.«164693_j41841571397936_2_alg».proof.Proof.Gen.ReferenceIdeal.Run
import proofs.«164693_j41841571397936_2_alg».proof.Proof.Gen.Pre_finite_inputs
import proofs.«164693_j41841571397936_2_alg».proof.Proof.SageKernel
import proofs.«164693_j41841571397936_2_alg».proof.Proof.SageReference
import Idealize.ShloMosaic.Adequacy
import Idealize.ShloMosaic.Init

noncomputable section

namespace Cert.Proof

open Idealize.ShloMosaic Idealize.ShloMosaic.TcCoe Idealize.SL.Sem

/-- The in-degree vector is written the same way in both programs. -/
theorem cnt_eq (e : Cert.KernelIdeal.Sage.Edges) : Cert.ReferenceIdeal.Sage.cnt e = Cert.KernelIdeal.Sage.cnt e := by
  unfold Cert.ReferenceIdeal.Sage.cnt Cert.KernelIdeal.Sage.cnt Cert.ReferenceIdeal.Sage.dstIdx Cert.KernelIdeal.Sage.dstIdx
    Cert.KernelIdeal.Sage.dst
  rfl

/-- The neighbour sums at 32 channels are written the same way in both programs. -/
theorem agg32_eq (e : Cert.KernelIdeal.Sage.Edges) : Cert.ReferenceIdeal.Sage.agg32 e = Cert.KernelIdeal.Sage.agg32 e := by
  funext x
  unfold Cert.ReferenceIdeal.Sage.agg32 Cert.KernelIdeal.Sage.agg32 Cert.ReferenceIdeal.Sage.dstIdx Cert.KernelIdeal.Sage.dstIdx
    Cert.ReferenceIdeal.Sage.srcIdx Cert.KernelIdeal.Sage.srcIdx Cert.KernelIdeal.Sage.dst Cert.KernelIdeal.Sage.src
  rfl

/-- The neighbour sums at 64 channels are written the same way in both programs. -/
theorem agg64_eq (e : Cert.KernelIdeal.Sage.Edges) : Cert.ReferenceIdeal.Sage.agg64 e = Cert.KernelIdeal.Sage.agg64 e := by
  funext h
  unfold Cert.ReferenceIdeal.Sage.agg64 Cert.KernelIdeal.Sage.agg64 Cert.ReferenceIdeal.Sage.dstIdx Cert.KernelIdeal.Sage.dstIdx
    Cert.ReferenceIdeal.Sage.srcIdx Cert.KernelIdeal.Sage.srcIdx Cert.KernelIdeal.Sage.dst Cert.KernelIdeal.Sage.src
  rfl

/-- Both programs, run from memories that agree on the arguments, end with the network of the arguments in their result
    arrays. -/
theorem algebraic : Cert.algebraic_KernelIdeal_ReferenceIdeal := by
  intro m ρ m' ρ' _ hagree
  refine ⟨_, Cert.KernelIdeal.Sage.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Sage.result_eq, h0, h1, h2, h3, h4, h5, h6, h7, cnt_eq, agg32_eq, agg64_eq]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
